-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50000 : Shape := ⟨2, ![64, 50000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S64x50000 : S_.BroadcastsInDim S64x50000 (![] : Fin 0 → Fin S64x50000.rank)
  reducesTo_S64x50000_S_d0_1 : S64x50000.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S64x50000 .f32) (main_arg1 : IVec S800000 32) (main_arg2 : IVec S800000 32) (main_arg3 : FVec F S64x64 .f32) (main_arg4 : FVec F S64 .f32) (main_arg5 : FVec F S64x32 .f32) (main_arg6 : FVec F S32 .f32) : IVec S_ 1 :=
  let main_v0 : FVec F S64x50000 .f32 := Host.absf main_arg0
  let main_cst : FVec F S_ .f32 := constant S_ .f32 0x7F800000#32
  let main_v1 : FVec F S64x50000 .f32 := broadcastInDim S64x50000 ![] bcast_S_S64x50000 main_cst
  let main_v2 : IVec S64x50000 1 := cmpf .olt main_v0 main_v1
  let main_c : IVec S_ 1 := constantI S_ 1 1#1
  let main_v3 : IVec S_ 1 := (fun x v => Host.reduce IntOp.andi x v reducesTo_S64x50000_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_v13 main_v16
-- ==== Kernel.lean ====
abbrev S64x50000 : Shape := ⟨2, ![64, 50000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000x64 : Shape := ⟨2, ![50000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩
abbrev S1x32 : Shape := ⟨2, ![1, 32]⟩
abbrev S50000x32 : Shape := ⟨2, ![50000, 32]⟩
abbrev S5000x32 : Shape := ⟨2, ![5000, 32]⟩
abbrev S32x50000 : Shape := ⟨2, ![32, 50000]⟩

abbrev nBuf : Space → Nat
  | .hbm => 65
  | .vmem => 28
  | .smem => 0
  | _ => 0

abbrev bufTy : (tb : Table) → Fin (tcTables nBuf tb) → BufTy
  | .hbm, ⟨0, _⟩ => ⟨S64x50000, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000x64, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S1x32, .f32⟩
  | .hbm, ⟨63, _⟩ => ⟨S50000x32, .f32⟩
  | .hbm, ⟨64, _⟩ => ⟨S32x50000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S64x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | _, _ => ⟨S64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  transposes_S64x50000_S50000x64_1_0 : S64x50000.Transposes [1, 0] S50000x64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  transposes_S50000x32_S32x50000_1_0 : S50000x32.Transposes [1, 0] S32x50000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S50000x32.size a
  hwx3_4 : ∀ i : grid3.Coords, EltTy.bits .f32 = 32 ∨ (Rect.block (s := S50000x32) S5000x32.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S64x50000 : Shape := ⟨2, ![64, 50000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000x64 : Shape := ⟨2, ![50000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S50000x32 : Shape := ⟨2, ![50000, 32]⟩
abbrev S1x32 : Shape := ⟨2, ![1, 32]⟩
abbrev S32x50000 : Shape := ⟨2, ![32, 50000]⟩

abbrev nBuf : Space → Nat
  | .hbm => 80
  | .vmem => 0
  | .smem => 0
  | _ => 0

abbrev bufTy : (tb : Table) → Fin (tcTables nBuf tb) → BufTy
  | .hbm, ⟨0, _⟩ => ⟨S64x50000, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000x64, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S50000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S50000x32, .f32⟩
  | .hbm, ⟨76, _⟩ => ⟨S1x32, .f32⟩
  | .hbm, ⟨77, _⟩ => ⟨S50000x32, .f32⟩
  | .hbm, ⟨78, _⟩ => ⟨S50000x32, .f32⟩
  | .hbm, ⟨79, _⟩ => ⟨S32x50000, .f32⟩
  | _, _ => ⟨S64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  transposes_S64x50000_S50000x64_1_0 : S64x50000.Transposes [1, 0] S50000x64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S50000x32_S32x50000_1_0 : S50000x32.Transposes [1, 0] S32x50000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.RunResult.lean ====
/-
  The kernel program's run with its result named.

  The program is eight segments: host operations, the first scaling region, host operations (the gather along the edges
  and the sum into the destination rows), the first layer region, the second scaling region, host operations again, the
  second layer region, and a final transpose. Every weakly fair execution terminates without a fault, and the final
  state holds, at every buffer no region scopes, the contents the fold of these segments over the launch memory gives it.
  The frame reads the argument buffers off that final state; here the result buffer is read off it as well, so the
  result is named as the fold's value at the result buffer, and the arguments are unchanged.
-/
import proofs.«119182_j31250182045888_1_alg».proof.Proof.Gen.KernelIdeal.Frame

set_option maxRecDepth 16384

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold's
    value and the argument buffers as launched. -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunResult

end
-- ==== Proof.LibGraphLayer.lean ====
/-
  The mathematics of one graph-convolution layer, entry by entry, at the ideal values, and its two spellings.

  For a matrix x (M rows, K columns) and a column n (M rows, one column), `scaleRows x n` multiplies row a of x by the
  one entry n(a, 0). For a matrix y (M rows, K columns), a weight matrix W (K rows, N columns) and a row b (one row, N
  columns), `affine y W b` has at (a, q) the value (∑ c, y(a, c) · W(c, q)) + b(0, q). `ramp` is the maximum with the
  extended real the word of +0.0 denotes, entry by entry. The operations are kept in exactly this order and association:
  no identity of the extended reals is used, only the reading of each array operation at an index.

  Each of the three is read in two spellings. On a tile of rows: the column is broadcast across the tile's columns, the
  two factors of the product are rounded to bf16 (the identity at the ideal values) and multiplied into a zero
  accumulator, the bias is a [1, N] row broadcast down the tile, and the zero of the maximum is a scalar spread over the
  tile. On a whole array: the column is a vector of shape [M] broadcast first to [M, 1] and then across the columns, the
  product is the host's, the bias is a vector of shape [N] broadcast to one row and then down the rows, and the zero is
  a scalar broadcast to the array's shape. A vector reshaped to a column (or to a row) is the same column (row).

  Every entry of `scaleRows` and of `affine` reads one row of its first operand only, so a block of rows of the value is
  the same function of the same rows: that is what lets a program compute it block by block.

  `twoLayer` is the two-layer network: with an aggregation `agg` of node rows along the graph's edges left abstract,
  layer(x) = affine (scaleRows (agg (scaleRows x ns)) nd) W b, the first layer followed by `ramp`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GraphLayer

open Idealize.ShloMosaic Idealize.ShloMosaic.ValueIdx

variable {M K N : Nat}

/-- The extended real that the word of +0.0 denotes, kept as its word: both programs write the same word. -/
abbrev zeroWord : EReal := Ideal.ofBits .f32 0x00000000#32

/-! ## The functions -/

/-- Row a of x multiplied by the column's entry n(a, 0). -/
def scaleRows (x : FVec Ideal ⟨2, ![M, K]⟩ .f32) (n : FVec Ideal ⟨2, ![M, 1]⟩ .f32) : FVec Ideal ⟨2, ![M, K]⟩ .f32 :=
  fun i => x i * n (ix2 (show Fin M from i 0) (0 : Fin 1))

theorem scaleRows_apply (x : FVec Ideal ⟨2, ![M, K]⟩ .f32) (n : FVec Ideal ⟨2, ![M, 1]⟩ .f32) (a : Fin M) (q : Fin K) :
    scaleRows x n (ix2 a q) = x (ix2 a q) * n (ix2 a (0 : Fin 1)) := rfl

/-- The product with W plus the bias row, entry by entry. -/
def affine (y : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ c : Fin K, y (ix2 (show Fin M from i 0) c) * W (ix2 c (show Fin N from i 1)))
    + b (ix2 (0 : Fin 1) (show Fin N from i 1))

theorem affine_apply (y : FVec Ideal ⟨2, ![M, K]⟩ .f32) (W : FVec Ideal ⟨2, ![K, N]⟩ .f32) (b : FVec Ideal ⟨2, ![1, N]⟩ .f32)
    (a : Fin M) (q : Fin N) :
    affine y W b (ix2 a q) = (∑ c : Fin K, y (ix2 a c) * W (ix2 c q)) + b (ix2 (0 : Fin 1) q) := rfl

/-- The maximum with zero, entry by entry. -/
def ramp (a : FVec Ideal ⟨2, ![M, K]⟩ .f32) : FVec Ideal ⟨2, ![M, K]⟩ .f32 := fun i => max (a i) zeroWord

theorem ramp_apply (a : FVec Ideal ⟨2, ![M, K]⟩ .f32) (i : (⟨2, ![M, K]⟩ : Shape).Idx) : ramp a i = max (a i) zeroWord := rfl

/-- The two-layer network over an abstract aggregation of node rows. -/
def twoLayer {D H E : Nat} (agg : FVec Ideal ⟨2, ![M, D]⟩ .f32 → FVec Ideal ⟨2, ![M, D]⟩ .f32)
    (agg' : FVec Ideal ⟨2, ![M, H]⟩ .f32 → FVec Ideal ⟨2, ![M, H]⟩ .f32)
    (x : FVec Ideal ⟨2, ![M, D]⟩ .f32) (ns nd : FVec Ideal ⟨2, ![M, 1]⟩ .f32)
    (W1 : FVec Ideal ⟨2, ![D, H]⟩ .f32) (b1 : FVec Ideal ⟨2, ![1, H]⟩ .f32)
    (W2 : FVec Ideal ⟨2, ![H, E]⟩ .f32) (b2 : FVec Ideal ⟨2, ![1, E]⟩ .f32) : FVec Ideal ⟨2, ![M, E]⟩ .f32 :=
  affine (scaleRows (agg' (scaleRows (ramp (affine (scaleRows (agg (scaleRows x ns)) nd) W1 b1)) ns)) nd) W2 b2

/-! ## A column broadcast across the columns, a vector made a column, a vector made a row -/

/-- An [M, 1] column broadcast to [M, K] reads, at (a, q), the column's entry at row a. -/
theorem broadcastTo_a1_ab_apply (v : (⟨2, ![M, 1]⟩ : Shape).Idx → EReal) (h : (⟨2, ![M, 1]⟩ : Shape).Broadcasts ⟨2, ![M, K]⟩)
    (a : Fin M) (q : Fin K) : broadcastTo ⟨2, ![M, K]⟩ v h (ix2 a q) = v (ix2 a (0 : Fin 1)) := by
  refine broadcastTo_apply v h (ix2 a q) (ix2 a (0 : Fin 1)) fun ax => ?_
  match ax with
  | ⟨0, _⟩ =>
    show a.val = if M = 1 then 0 else a.val
    split
    · have := a.isLt; omega
    · rfl
  | ⟨1, _⟩ =>
    show (0 : Nat) = if 1 = 1 then 0 else q.val
    rfl

/-- A vector of shape [M] reshaped to a column [M, 1] reads, at (a, 0), the vector's entry a. -/
theorem shapeCast_a_a1_apply (v : (⟨1, ![M]⟩ : Shape).Idx → EReal) (h : (⟨1, ![M]⟩ : Shape).ShapeCasts ⟨2, ![M, 1]⟩)
    (a : Fin M) (u : Fin 1) : shapeCast ⟨2, ![M, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A vector of shape [M] broadcast to a column [M, 1] along axis 0 reads, at (a, 0), the vector's entry a. -/
theorem broadcastInDim_a_a1_apply (v : (⟨1, ![M]⟩ : Shape).Idx → EReal)
    (h : (⟨1, ![M]⟩ : Shape).BroadcastsInDim ⟨2, ![M, 1]⟩ ![0]) (a : Fin M) (u : Fin 1) :
    broadcastInDim ⟨2, ![M, 1]⟩ ![0] h v (ix2 a u) = v (ix1 a) :=
  broadcastInDim_apply (![0] : Fin 1 → Fin 2) h v (ix2 a u) (ix1 a) (fun ax => by
    match ax with
    | ⟨0, _⟩ =>
      show a.val = if M = 1 then 0 else a.val
      split
      · have := a.isLt; omega
      · rfl)

/-- A vector of shape [N] broadcast to a row [1, N] along axis 1 reads, at (0, q), the vector's entry q. -/
theorem broadcastInDim_b_1b_apply (v : (⟨1, ![N]⟩ : Shape).Idx → EReal)
    (h : (⟨1, ![N]⟩ : Shape).BroadcastsInDim ⟨2, ![1, N]⟩ ![1]) (u : Fin 1) (q : Fin N) :
    broadcastInDim ⟨2, ![1, N]⟩ ![1] h v (ix2 u q) = v (ix1 q) :=
  broadcastInDim_apply (![1] : Fin 1 → Fin 2) h v (ix2 u q) (ix1 q) (fun ax => by
    match ax with
    | ⟨0, _⟩ =>
      show q.val = if N = 1 then 0 else q.val
      split
      · have := q.isLt; omega
      · rfl)

/-- A column [M, 1] broadcast to [M, K] along axes 0 and 1 reads, at (a, q), the column's entry at row a. -/
theorem broadcastInDim_a1_ab_apply (v : (⟨2, ![M, 1]⟩ : Shape).Idx → EReal)
    (h : (⟨2, ![M, 1]⟩ : Shape).BroadcastsInDim ⟨2, ![M, K]⟩ ![0, 1]) (a : Fin M) (q : Fin K) :
    broadcastInDim ⟨2, ![M, K]⟩ ![0, 1] h v (ix2 a q) = v (ix2 a (0 : Fin 1)) :=
  broadcastInDim_apply (![0, 1] : Fin 2 → Fin 2) h v (ix2 a q) (ix2 a (0 : Fin 1)) (fun ax => by
    match ax with
    | ⟨0, _⟩ =>
      show a.val = if M = 1 then 0 else a.val
      split
      · have := a.isLt; omega
      · rfl
    | ⟨1, _⟩ =>
      show (0 : Nat) = if 1 = 1 then 0 else q.val
      rfl)

/-- A row [1, N] broadcast to [M, N] along axes 0 and 1 reads, at (a, q), the row's entry at column q. -/
theorem broadcastInDim_1b_ab_apply (v : (⟨2, ![1, N]⟩ : Shape).Idx → EReal)
    (h : (⟨2, ![1, N]⟩ : Shape).BroadcastsInDim ⟨2, ![M, N]⟩ ![0, 1]) (a : Fin M) (q : Fin N) :
    broadcastInDim ⟨2, ![M, N]⟩ ![0, 1] h v (ix2 a q) = v (ix2 (0 : Fin 1) q) :=
  broadcastInDim_apply (![0, 1] : Fin 2 → Fin 2) h v (ix2 a q) (ix2 (0 : Fin 1) q) (fun ax => by
    match ax with
    | ⟨0, _⟩ =>
      show (0 : Nat) = if 1 = 1 then 0 else a.val
      rfl
    | ⟨1, _⟩ =>
      show q.val = if N = 1 then 0 else q.val
      split
      · have := q.isLt; omega
      · rfl)

/-! ## The product into a zero accumulator, at an index -/

/-- The plain product of an M×K by a K×N matrix into a zero accumulator reads, at (a, b), the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## The tile's spelling -/

/-- Rows scaled on a tile: the column broadcast across the tile's columns, then the product. -/
theorem tile_scale (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (x : FVec Ideal ⟨2, ![M, K]⟩ .f32) (n : FVec Ideal ⟨2, ![M, 1]⟩ .f32) :
    mulf (shapeCast ⟨2, ![M, K]⟩ x h) (broadcastTo ⟨2, ![M, K]⟩ (shapeCast ⟨2, ![M, 1]⟩ n h') hb) = scaleRows x n := by
  rw [shapeCast_self x h, shapeCast_self n h']
  funext j
  obtain ⟨a, q, rfl⟩ : ∃ (a : Fin M) (q : Fin K), j = ix2 a q := ⟨j 0, j 1, eq_ix2 j⟩
  rw [scaleRows_apply, mulf_apply, broadcastTo_a1_ab_apply n hb]

/-- The product with the weights and the bias row on a tile: the two factors rounded to bf16 (the identity at the
    ideal values) and multiplied into a zero accumulator, then the bias row broadcast down the tile and added. -/
theorem tile_affine (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ (shapeCast ⟨2, ![1, N]⟩ b h1) hb)
      = affine y W b := by
  subst hD
  rw [shapeCast_self b h1]
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The maximum of a tile with a scalar zero word spread over the tile. -/
theorem tile_ramp (a : FVec Ideal ⟨2, ![M, K]⟩ .f32) :
    maximumf a (broadcast ⟨2, ![M, K]⟩ (Scalar.ofBits (F := Ideal) .f32 0x00000000#32)) = ramp a := by
  funext i
  rw [ramp_apply, maximumf_apply, broadcast_apply]
  rfl

/-! ## The whole array's spelling -/

/-- Rows scaled on the whole array: the vector made a column, the column broadcast across the columns, the product;
    the column is the vector reshaped. -/
theorem host_scale (h1 : (⟨1, ![M]⟩ : Shape).BroadcastsInDim ⟨2, ![M, 1]⟩ ![0])
    (h2 : (⟨2, ![M, 1]⟩ : Shape).BroadcastsInDim ⟨2, ![M, K]⟩ ![0, 1]) (hs : (⟨1, ![M]⟩ : Shape).ShapeCasts ⟨2, ![M, 1]⟩)
    (X : FVec Ideal ⟨2, ![M, K]⟩ .f32) (nv : FVec Ideal ⟨1, ![M]⟩ .f32) :
    mulf X (broadcastInDim ⟨2, ![M, K]⟩ ![0, 1] h2 (broadcastInDim ⟨2, ![M, 1]⟩ ![0] h1 nv))
      = scaleRows X (shapeCast ⟨2, ![M, 1]⟩ nv hs) := by
  funext j
  obtain ⟨a, q, rfl⟩ : ∃ (a : Fin M) (q : Fin K), j = ix2 a q := ⟨j 0, j 1, eq_ix2 j⟩
  rw [scaleRows_apply, mulf_apply, broadcastInDim_a1_ab_apply _ h2, broadcastInDim_a_a1_apply nv h1,
    shapeCast_a_a1_apply nv hs]

/-- The product with the weights and the bias on the whole array: the host's product, then the bias vector made a row,
    broadcast down the rows and added; the row is the vector reshaped. -/
theorem host_affine (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (Y : FVec Ideal ⟨2, ![M, K]⟩ .f32) (W : FVec Ideal ⟨2, ![K, N]⟩ .f32) (bv : FVec Ideal ⟨1, ![N]⟩ .f32) :
    addf (Host.dotGeneral D none Y W) (broadcastInDim ⟨2, ![M, N]⟩ ![0, 1] h2 (broadcastInDim ⟨2, ![1, N]⟩ ![1] h1 bv))
      = affine Y W (shapeCast ⟨2, ![1, N]⟩ bv hs) := by
  subst hD
  funext j
  obtain ⟨a, q, rfl⟩ : ∃ (a : Fin M) (q : Fin N), j = ix2 a q := ⟨j 0, j 1, eq_ix2 j⟩
  rw [affine_apply, addf_apply, StackMember.dotGeneral_plain_apply, broadcastInDim_1b_ab_apply _ h2,
    broadcastInDim_b_1b_apply bv h1, shapeCast_a_1a_apply bv hs]

/-- The maximum of the array with the scalar zero word broadcast to the array's shape. -/
theorem host_ramp (h0 : (⟨0, ![]⟩ : Shape).BroadcastsInDim ⟨2, ![M, K]⟩ ![]) (a : FVec Ideal ⟨2, ![M, K]⟩ .f32) :
    maximumf a (broadcastInDim ⟨2, ![M, K]⟩ ![] h0 (constant (F := Ideal) ⟨0, ![]⟩ .f32 0x00000000#32)) = ramp a := by
  funext j
  obtain ⟨p, q, rfl⟩ : ∃ (p : Fin M) (q : Fin K), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of the scaled rows reads one entry of x and one of the column: if the block's entry (a, q) is X's entry
    (A, q) and the block column's entry a is the column's entry A, the two values agree. -/
theorem scaleRows_rows {R : Nat} (X : FVec Ideal ⟨2, ![M, K]⟩ .f32) (C : FVec Ideal ⟨2, ![M, 1]⟩ .f32)
    (xb : FVec Ideal ⟨2, ![R, K]⟩ .f32) (cb : FVec Ideal ⟨2, ![R, 1]⟩ .f32) (a : Fin R) (A : Fin M) (q : Fin K)
    (hx : xb (ix2 a q) = X (ix2 A q)) (hc : cb (ix2 a (0 : Fin 1)) = C (ix2 A (0 : Fin 1))) :
    scaleRows xb cb (ix2 a q) = scaleRows X C (ix2 A q) := by
  rw [scaleRows_apply, scaleRows_apply, hx, hc]

/-- An entry of the affine map reads one row of its first operand: if row a of the block is row A of Y, the two values
    agree. -/
theorem affine_rows {R : Nat} (Y : FVec Ideal ⟨2, ![M, K]⟩ .f32) (yb : FVec Ideal ⟨2, ![R, K]⟩ .f32)
    (W : FVec Ideal ⟨2, ![K, N]⟩ .f32) (b : FVec Ideal ⟨2, ![1, N]⟩ .f32) (a : Fin R) (A : Fin M) (q : Fin N)
    (hy : ∀ c : Fin K, yb (ix2 a c) = Y (ix2 A c)) :
    affine yb W b (ix2 a q) = affine Y W b (ix2 A q) := by
  have hs : (∑ c : Fin K, yb (ix2 a c) * W (ix2 c q)) = ∑ c : Fin K, Y (ix2 A c) * W (ix2 c q) :=
    Finset.sum_congr rfl fun c _ => by rw [hy c]
  rw [affine_apply, affine_apply, hs]

end Cert.GraphLayer

end
-- ==== Proof.ScaleFirst.lean ====
/-
  The first row-scaling region, as one function of the arrays it finds.

  The region walks the 50000 node rows in ten blocks of 5000. At block t it reads rows 5000·t … 5000·t + 4999 of the
  feature matrix (64 columns) and the same rows of the normalising column, multiplies each row by its column entry, and
  writes the block back to the same rows of the output. Every entry of the product reads one entry of the matrix and
  one of the column, both in its own row, so the block written at t is the block of `scaleRows` of the two whole arrays;
  the ten blocks tile the output, so the output array ends as `scaleRows` of the two whole arrays.
-/
import proofs.«119182_j31250182045888_1_alg».proof.Proof.Gen.KernelIdeal.Frame
import proofs.«119182_j31250182045888_1_alg».proof.Proof.LibGraphLayer
import Idealize.ShloMosaic.Lib.Pipeline.Value

set_option maxRecDepth 16384

noncomputable section

namespace Cert.KernelIdeal.ScaleFirst

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The origin of a block: both offsets are zero. -/
theorem origin : (![0, 0] : Fin 2 → Nat) = fun _ => 0 := funext fun a => by fin_cases a <;> rfl

/-- The value the body stores is its matrix block with each row multiplied by the column block's entry. -/
theorem stored_eq (x0 : Vec Ideal S5000x64 .f32) (x1 : Vec Ideal S5000x1 .f32) : k0_pay1 x0 x1 = scaleRows x0 x1 := by
  unfold k0_pay1
  exact tile_scale _ _ _ x0 x1

/-- An entry of the scaled block is the entry of the scaled whole arrays, when the block's entry and the block
    column's entry are the whole arrays' at the matching row. -/
theorem scale_block (X : FVec Ideal S50000x64 .f32) (C : FVec Ideal S50000x1 .f32)
    (xb : FVec Ideal S5000x64 .f32) (cb : FVec Ideal S5000x1 .f32) (j : S5000x64.Idx) (J : S50000x64.Idx)
    (hx : xb j = X J) (hc : cb (ix2 (show Fin 5000 from j 0) (0 : Fin 1)) = C (ix2 (show Fin 50000 from J 0) (0 : Fin 1))) :
    scaleRows xb cb j = scaleRows X C J := by
  show xb j * cb (ix2 (show Fin 5000 from j 0) (0 : Fin 1)) = X J * C (ix2 (show Fin 50000 from J 0) (0 : Fin 1))
  rw [hx, hc]

/-- The block indices over the grid: at point t every window is at block row t, block column 0. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the scaled whole arrays. -/
theorem written_eq (c : Dev nD) (t : Fin cfg0.N) :
    (dat0 V c).flushed 2 t = ((cfg0.win 2).blk t).view.read (Elt Ideal) (scaleRows (V c main_v0) (V c main_v14)) := by
  show (cfg0.win 2).cut (grid0.coords t) ((dat0 V c).after 2 t) = _
  rw [after0_2]
  unfold out0_2
  rw [View.canon_unit_zero origin]
  simp only [View.ld_unit_zero (S := S5000x64) origin, View.ld_unit_zero (S := S5000x1) origin]
  rw [stored_eq]
  obtain ⟨e0, e1, e2, e3, e4, e5⟩ := blockIndex t
  funext j
  show scaleRows (iblk0 V c 0 t) (iblk0 V c 1 t) j
    = scaleRows (V c main_v0) (V c main_v14) (((cfg0.win 2).blk t).view.emb j)
  refine scale_block _ _ _ _ j _ ?_ ?_
  · show V c main_v0 (((cfg0.win 0).blk t).view.emb j) = V c main_v0 (((cfg0.win 2).blk t).view.emb j)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  · show V c main_v14 (((cfg0.win 1).blk t).view.emb (ix2 (show Fin 5000 from j 0) (0 : Fin 1)))
      = V c main_v14 (ix2 (show Fin 50000 from (((cfg0.win 2).blk t).view.emb j) 0) (0 : Fin 1))
    refine congrArg _ (funext fun a => Fin.ext ?_)
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An index of the output is in point t's block iff each coordinate is in the block's range on its axis. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v18).slice (win0_2.rect t)).set ↔ _
  rw [View.set_slice_whole, Rect.mem_set_unit]
  exact Iff.rfl

/-- Every block row is some point's. -/
theorem blockOnto : ∀ q0 : Fin 10, ∃ t : Fin cfg0.N, win0_2.index t = ![q0.val, 0] :=
  (by decide +kernel : ∀ q0 : Fin 10, ∃ t : Fin grid0.N, win0_2.index t = ![q0.val, 0])

/-- The ten blocks tile the output: row r is in the block of point r / 5000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := blockOnto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the matrix it found with each row multiplied by the column's entry. -/
theorem final (c : Dev nD) : (dat0 V c).arrAt 2 cfg0.N = scaleRows (V c main_v0) (V c main_v14) :=
  (dat0 V c).arrAt_eq_of_cover 2 (scaleRows (V c main_v0) (V c main_v14)) (fun t _ => written_eq V c t) covered

end Cert.KernelIdeal.ScaleFirst

end
-- ==== Proof.ScaleSecond.lean ====
/-
  The second row-scaling region, as one function of the arrays it finds.

  The region walks the 50000 node rows in ten blocks of 5000. At block t it reads rows 5000·t … 5000·t + 4999 of the
  feature matrix (64 columns) and the same rows of the normalising column, multiplies each row by its column entry, and
  writes the block back to the same rows of the output. Every entry of the product reads one entry of the matrix and
  one of the column, both in its own row, so the block written at t is the block of `scaleRows` of the two whole arrays;
  the ten blocks tile the output, so the output array ends as `scaleRows` of the two whole arrays.
-/
import proofs.«119182_j31250182045888_1_alg».proof.Proof.Gen.KernelIdeal.Frame
import proofs.«119182_j31250182045888_1_alg».proof.Proof.LibGraphLayer
import Idealize.ShloMosaic.Lib.Pipeline.Value

set_option maxRecDepth 16384

noncomputable section

namespace Cert.KernelIdeal.ScaleSecond

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The origin of a block: both offsets are zero. -/
theorem origin : (![0, 0] : Fin 2 → Nat) = fun _ => 0 := funext fun a => by fin_cases a <;> rfl

/-- The value the body stores is its matrix block with each row multiplied by the column block's entry. -/
theorem stored_eq (x0 : Vec Ideal S5000x64 .f32) (x1 : Vec Ideal S5000x1 .f32) : k2_pay1 x0 x1 = scaleRows x0 x1 := by
  unfold k2_pay1
  exact tile_scale _ _ _ x0 x1

/-- An entry of the scaled block is the entry of the scaled whole arrays, when the block's entry and the block
    column's entry are the whole arrays' at the matching row. -/
theorem scale_block (X : FVec Ideal S50000x64 .f32) (C : FVec Ideal S50000x1 .f32)
    (xb : FVec Ideal S5000x64 .f32) (cb : FVec Ideal S5000x1 .f32) (j : S5000x64.Idx) (J : S50000x64.Idx)
    (hx : xb j = X J) (hc : cb (ix2 (show Fin 5000 from j 0) (0 : Fin 1)) = C (ix2 (show Fin 50000 from J 0) (0 : Fin 1))) :
    scaleRows xb cb j = scaleRows X C J := by
  show xb j * cb (ix2 (show Fin 5000 from j 0) (0 : Fin 1)) = X J * C (ix2 (show Fin 50000 from J 0) (0 : Fin 1))
  rw [hx, hc]

/-- The block indices over the grid: at point t every window is at block row t, block column 0. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the scaled whole arrays. -/
theorem written_eq (c : Dev nD) (t : Fin cfg2.N) :
    (dat2 V c).flushed 2 t = ((cfg2.win 2).blk t).view.read (Elt Ideal) (scaleRows (V c main_v30) (V c main_v14)) := by
  show (cfg2.win 2).cut (grid2.coords t) ((dat2 V c).after 2 t) = _
  rw [after2_2]
  unfold out2_2
  rw [View.canon_unit_zero origin]
  simp only [View.ld_unit_zero (S := S5000x64) origin, View.ld_unit_zero (S := S5000x1) origin]
  rw [stored_eq]
  obtain ⟨e0, e1, e2, e3, e4, e5⟩ := blockIndex t
  funext j
  show scaleRows (iblk2 V c 0 t) (iblk2 V c 1 t) j
    = scaleRows (V c main_v30) (V c main_v14) (((cfg2.win 2).blk t).view.emb j)
  refine scale_block _ _ _ _ j _ ?_ ?_
  · show V c main_v30 (((cfg2.win 0).blk t).view.emb j) = V c main_v30 (((cfg2.win 2).blk t).view.emb j)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  · show V c main_v14 (((cfg2.win 1).blk t).view.emb (ix2 (show Fin 5000 from j 0) (0 : Fin 1)))
      = V c main_v14 (ix2 (show Fin 50000 from (((cfg2.win 2).blk t).view.emb j) 0) (0 : Fin 1))
    refine congrArg _ (funext fun a => Fin.ext ?_)
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 1 + 1 * 0 = 0; omega

/-- An index of the output is in point t's block iff each coordinate is in the block's range on its axis. -/
theorem mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v31).slice (win2_2.rect t)).set ↔ _
  rw [View.set_slice_whole, Rect.mem_set_unit]
  exact Iff.rfl

/-- Every block row is some point's. -/
theorem blockOnto : ∀ q0 : Fin 10, ∃ t : Fin cfg2.N, win2_2.index t = ![q0.val, 0] :=
  (by decide +kernel : ∀ q0 : Fin 10, ∃ t : Fin grid2.N, win2_2.index t = ![q0.val, 0])

/-- The ten blocks tile the output: row r is in the block of point r / 5000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := blockOnto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: the matrix it found with each row multiplied by the column's entry. -/
theorem final (c : Dev nD) : (dat2 V c).arrAt 2 cfg2.N = scaleRows (V c main_v30) (V c main_v14) :=
  (dat2 V c).arrAt_eq_of_cover 2 (scaleRows (V c main_v30) (V c main_v14)) (fun t _ => written_eq V c t) covered

end Cert.KernelIdeal.ScaleSecond

end
-- ==== Proof.LayerFirst.lean ====
/-
  The first layer region, as one function of the arrays it finds.

  The region walks the 50000 node rows in ten blocks of 5000. At block t it reads rows 5000·t … 5000·t + 4999 of the
  aggregated feature matrix (64 columns) and the same rows of the normalising column, and, at every t, the whole weight
  matrix (64 by 64) and the whole bias row (1 by 64). It multiplies each row by its column entry, multiplies the
  result by the weights into a zero accumulator, adds the bias row, takes the maximum with zero, and writes the block back to the same rows of the
  output. Entry (a, q) of that value reads row a of the matrix and of the column only, so the block written at t is the
  block of the same function of the whole arrays; the ten blocks tile the output.
-/
import proofs.«119182_j31250182045888_1_alg».proof.Proof.Gen.KernelIdeal.Frame
import proofs.«119182_j31250182045888_1_alg».proof.Proof.LibGraphLayer
import Idealize.ShloMosaic.Lib.Pipeline.Value

set_option maxRecDepth 16384

noncomputable section

namespace Cert.KernelIdeal.LayerFirst

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The origin of a block: both offsets are zero. -/
theorem origin : (![0, 0] : Fin 2 → Nat) = fun _ => 0 := funext fun a => by fin_cases a <;> rfl

/-- The value the body stores: the rows scaled, multiplied by the weights, the bias row added, the maximum with zero taken. -/
theorem stored_eq (x0 : Vec Ideal S5000x64 .f32) (x1 : Vec Ideal S5000x1 .f32) (x2 : Vec Ideal S64x64 .f32) (x3 : Vec Ideal S1x64 .f32) :
    k1_pay1 x0 x1 x2 x3 = ramp (affine (scaleRows x0 x1) x2 x3) := by
  unfold k1_pay1
  dsimp only
  rw [tile_scale, tile_affine dot_S5000x64_S64x64_S5000x64_1_0_0_1_n_n rfl]
  exact tile_ramp _

/-- An entry of the block's value is the entry of the whole arrays' value, when row a of the block and of the block
    column are row A of the whole arrays, and the weights and the bias row are the whole arrays'. -/
theorem layer_block (X : FVec Ideal S50000x64 .f32) (C : FVec Ideal S50000x1 .f32) (W : FVec Ideal S64x64 .f32) (B : FVec Ideal S1x64 .f32)
    (xb : FVec Ideal S5000x64 .f32) (cb : FVec Ideal S5000x1 .f32) (wb : FVec Ideal S64x64 .f32) (bb : FVec Ideal S1x64 .f32)
    (j : S5000x64.Idx) (J : S50000x64.Idx) (h1 : (J 1).val = (j 1).val)
    (hx : ∀ c : Fin 64, xb (ix2 (show Fin 5000 from j 0) c) = X (ix2 (show Fin 50000 from J 0) c))
    (hc : cb (ix2 (show Fin 5000 from j 0) (0 : Fin 1)) = C (ix2 (show Fin 50000 from J 0) (0 : Fin 1)))
    (hw : ∀ (c : Fin 64) (q : Fin 64), wb (ix2 c q) = W (ix2 c q)) (hb : ∀ q : Fin 64, bb (ix2 (0 : Fin 1) q) = B (ix2 (0 : Fin 1) q)) :
    ramp (affine (scaleRows xb cb) wb bb) j = ramp (affine (scaleRows X C) W B) J := by
  obtain ⟨a, q, rfl⟩ : ∃ (a : Fin 5000) (q : Fin 64), j = ix2 a q := ⟨j 0, j 1, eq_ix2 j⟩
  obtain ⟨A, Q, rfl⟩ : ∃ (A : Fin 50000) (Q : Fin 64), J = ix2 A Q := ⟨J 0, J 1, eq_ix2 J⟩
  have hQ : Q = q := Fin.ext h1
  subst hQ
  have hs : (∑ c : Fin 64, scaleRows xb cb (ix2 a c) * wb (ix2 c Q)) = ∑ c : Fin 64, scaleRows X C (ix2 A c) * W (ix2 c Q) :=
    Finset.sum_congr rfl fun c _ => by rw [scaleRows_apply, scaleRows_apply, hw c Q]; exact congrArg₂ (fun u v => u * v * W (ix2 c Q)) (hx c) hc
  rw [ramp_apply, ramp_apply, affine_apply, affine_apply, hs, hb Q]

/-- The block indices over the grid: at point t the matrix, the column and the output are at block row t, and the
    weights and the bias row at their one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer's value on the whole arrays. -/
theorem written_eq (c : Dev nD) (t : Fin cfg1.N) :
    (dat1 V c).flushed 4 t = ((cfg1.win 4).blk t).view.read (Elt Ideal)
      (ramp (affine (scaleRows (V c main_v28) (V c main_v17)) (V c main_arg3) (V c main_v29))) := by
  show (cfg1.win 4).cut (grid1.coords t) ((dat1 V c).after 4 t) = _
  rw [after1_4]
  unfold out1_4
  rw [View.canon_unit_zero origin]
  simp only [View.ld_unit_zero (S := S5000x64) origin, View.ld_unit_zero (S := S5000x1) origin,
    View.ld_unit_zero (S := S64x64) origin, View.ld_unit_zero (S := S1x64) origin]
  rw [stored_eq]
  obtain ⟨e0, e1, e2, e3, e4, e5, e6, e7, e8, e9⟩ := blockIndex t
  funext j
  show ramp (affine (scaleRows (iblk1 V c 0 t) (iblk1 V c 1 t)) (iblk1 V c 2 t) (iblk1 V c 3 t)) j
    = ramp (affine (scaleRows (V c main_v28) (V c main_v17)) (V c main_arg3) (V c main_v29)) (((cfg1.win 4).blk t).view.emb j)
  refine layer_block _ _ _ _ _ _ _ _ j _ ?_ ?_ ?_ ?_ ?_
  · show win1_4.index t (1 : Fin 2) * 64 + 1 * (j 1).val = (j 1).val; omega
  · intro cc
    show V c main_v28 (((cfg1.win 0).blk t).view.emb (ix2 (show Fin 5000 from j 0) cc))
      = V c main_v28 (ix2 (show Fin 50000 from (((cfg1.win 4).blk t).view.emb j) 0) cc)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * cc.val = cc.val; omega
  · show V c main_v17 (((cfg1.win 1).blk t).view.emb (ix2 (show Fin 5000 from j 0) (0 : Fin 1)))
      = V c main_v17 (ix2 (show Fin 50000 from (((cfg1.win 4).blk t).view.emb j) 0) (0 : Fin 1))
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · intro cc q
    show V c main_arg3 (((cfg1.win 2).blk t).view.emb (ix2 cc q)) = V c main_arg3 (ix2 cc q)
    refine congrArg _ (funext fun a => Fin.ext ?_)
    match a with
    | ⟨0, _⟩ => show win1_2.index t (0 : Fin 2) * 64 + 1 * cc.val = cc.val; omega
    | ⟨1, _⟩ => show win1_2.index t (1 : Fin 2) * 64 + 1 * q.val = q.val; omega
  · intro q
    show V c main_v29 (((cfg1.win 3).blk t).view.emb (ix2 (0 : Fin 1) q)) = V c main_v29 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An index of the output is in point t's block iff each coordinate is in the block's range on its axis. -/
theorem mem_block (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- Every block row is some point's. -/
theorem blockOnto : ∀ q0 : Fin 10, ∃ t : Fin cfg1.N, win1_4.index t = ![q0.val, 0] :=
  (by decide +kernel : ∀ q0 : Fin 10, ∃ t : Fin grid1.N, win1_4.index t = ![q0.val, 0])

/-- The ten blocks tile the output: row r is in the block of point r / 5000. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := blockOnto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region: the layer's value on the arrays it found. -/
theorem final (c : Dev nD) : (dat1 V c).arrAt 4 cfg1.N
    = ramp (affine (scaleRows (V c main_v28) (V c main_v17)) (V c main_arg3) (V c main_v29)) :=
  (dat1 V c).arrAt_eq_of_cover 4 (ramp (affine (scaleRows (V c main_v28) (V c main_v17)) (V c main_arg3) (V c main_v29)))
    (fun t _ => written_eq V c t) covered

end Cert.KernelIdeal.LayerFirst

end
-- ==== Proof.LayerSecond.lean ====
/-
  The second layer region, as one function of the arrays it finds.

  The region walks the 50000 node rows in ten blocks of 5000. At block t it reads rows 5000·t … 5000·t + 4999 of the
  aggregated feature matrix (64 columns) and the same rows of the normalising column, and, at every t, the whole weight
  matrix (64 by 32) and the whole bias row (1 by 32). It multiplies each row by its column entry, multiplies the
  result by the weights into a zero accumulator, adds the bias row, and writes the block back to the same rows of the
  output. Entry (a, q) of that value reads row a of the matrix and of the column only, so the block written at t is the
  block of the same function of the whole arrays; the ten blocks tile the output.
-/
import proofs.«119182_j31250182045888_1_alg».proof.Proof.Gen.KernelIdeal.Frame
import proofs.«119182_j31250182045888_1_alg».proof.Proof.LibGraphLayer
import Idealize.ShloMosaic.Lib.Pipeline.Value

set_option maxRecDepth 16384

noncomputable section

namespace Cert.KernelIdeal.LayerSecond

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The origin of a block: both offsets are zero. -/
theorem origin : (![0, 0] : Fin 2 → Nat) = fun _ => 0 := funext fun a => by fin_cases a <;> rfl

/-- The value the body stores: the rows scaled, multiplied by the weights, the bias row added. -/
theorem stored_eq (x0 : Vec Ideal S5000x64 .f32) (x1 : Vec Ideal S5000x1 .f32) (x2 : Vec Ideal S64x32 .f32) (x3 : Vec Ideal S1x32 .f32) :
    k3_pay1 x0 x1 x2 x3 = affine (scaleRows x0 x1) x2 x3 := by
  unfold k3_pay1
  dsimp only
  rw [tile_scale]
  exact tile_affine dot_S5000x64_S64x32_S5000x32_1_0_0_1_n_n rfl _ _ _ _ _ _

/-- An entry of the block's value is the entry of the whole arrays' value, when row a of the block and of the block
    column are row A of the whole arrays, and the weights and the bias row are the whole arrays'. -/
theorem layer_block (X : FVec Ideal S50000x64 .f32) (C : FVec Ideal S50000x1 .f32) (W : FVec Ideal S64x32 .f32) (B : FVec Ideal S1x32 .f32)
    (xb : FVec Ideal S5000x64 .f32) (cb : FVec Ideal S5000x1 .f32) (wb : FVec Ideal S64x32 .f32) (bb : FVec Ideal S1x32 .f32)
    (j : S5000x32.Idx) (J : S50000x32.Idx) (h1 : (J 1).val = (j 1).val)
    (hx : ∀ c : Fin 64, xb (ix2 (show Fin 5000 from j 0) c) = X (ix2 (show Fin 50000 from J 0) c))
    (hc : cb (ix2 (show Fin 5000 from j 0) (0 : Fin 1)) = C (ix2 (show Fin 50000 from J 0) (0 : Fin 1)))
    (hw : ∀ (c : Fin 64) (q : Fin 32), wb (ix2 c q) = W (ix2 c q)) (hb : ∀ q : Fin 32, bb (ix2 (0 : Fin 1) q) = B (ix2 (0 : Fin 1) q)) :
    affine (scaleRows xb cb) wb bb j = affine (scaleRows X C) W B J := by
  obtain ⟨a, q, rfl⟩ : ∃ (a : Fin 5000) (q : Fin 32), j = ix2 a q := ⟨j 0, j 1, eq_ix2 j⟩
  obtain ⟨A, Q, rfl⟩ : ∃ (A : Fin 50000) (Q : Fin 32), J = ix2 A Q := ⟨J 0, J 1, eq_ix2 J⟩
  have hQ : Q = q := Fin.ext h1
  subst hQ
  have hs : (∑ c : Fin 64, scaleRows xb cb (ix2 a c) * wb (ix2 c Q)) = ∑ c : Fin 64, scaleRows X C (ix2 A c) * W (ix2 c Q) :=
    Finset.sum_congr rfl fun c _ => by rw [scaleRows_apply, scaleRows_apply, hw c Q]; exact congrArg₂ (fun u v => u * v * W (ix2 c Q)) (hx c) hc
  rw [affine_apply, affine_apply, hs, hb Q]

/-- The block indices over the grid: at point t the matrix, the column and the output are at block row t, and the
    weights and the bias row at their one block. -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the layer's value on the whole arrays. -/
theorem written_eq (c : Dev nD) (t : Fin cfg3.N) :
    (dat3 V c).flushed 4 t = ((cfg3.win 4).blk t).view.read (Elt Ideal)
      (affine (scaleRows (V c main_v41) (V c main_v17)) (V c main_arg5) (V c main_v42)) := by
  show (cfg3.win 4).cut (grid3.coords t) ((dat3 V c).after 4 t) = _
  rw [after3_4]
  unfold out3_4
  rw [View.canon_unit_zero origin]
  simp only [View.ld_unit_zero (S := S5000x64) origin, View.ld_unit_zero (S := S5000x1) origin,
    View.ld_unit_zero (S := S64x32) origin, View.ld_unit_zero (S := S1x32) origin]
  rw [stored_eq]
  obtain ⟨e0, e1, e2, e3, e4, e5, e6, e7, e8, e9⟩ := blockIndex t
  funext j
  show affine (scaleRows (iblk3 V c 0 t) (iblk3 V c 1 t)) (iblk3 V c 2 t) (iblk3 V c 3 t) j
    = affine (scaleRows (V c main_v41) (V c main_v17)) (V c main_arg5) (V c main_v42) (((cfg3.win 4).blk t).view.emb j)
  refine layer_block _ _ _ _ _ _ _ _ j _ ?_ ?_ ?_ ?_ ?_
  · show win3_4.index t (1 : Fin 2) * 32 + 1 * (j 1).val = (j 1).val; omega
  · intro cc
    show V c main_v41 (((cfg3.win 0).blk t).view.emb (ix2 (show Fin 5000 from j 0) cc))
      = V c main_v41 (ix2 (show Fin 50000 from (((cfg3.win 4).blk t).view.emb j) 0) cc)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * cc.val = cc.val; omega
  · show V c main_v17 (((cfg3.win 1).blk t).view.emb (ix2 (show Fin 5000 from j 0) (0 : Fin 1)))
      = V c main_v17 (ix2 (show Fin 50000 from (((cfg3.win 4).blk t).view.emb j) 0) (0 : Fin 1))
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 1 + 1 * 0 = 0; omega
  · intro cc q
    show V c main_arg5 (((cfg3.win 2).blk t).view.emb (ix2 cc q)) = V c main_arg5 (ix2 cc q)
    refine congrArg _ (funext fun a => Fin.ext ?_)
    match a with
    | ⟨0, _⟩ => show win3_2.index t (0 : Fin 2) * 64 + 1 * cc.val = cc.val; omega
    | ⟨1, _⟩ => show win3_2.index t (1 : Fin 2) * 32 + 1 * q.val = q.val; omega
  · intro q
    show V c main_v42 (((cfg3.win 3).blk t).view.emb (ix2 (0 : Fin 1) q)) = V c main_v42 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 32 + 1 * q.val = q.val; omega

/-- An index of the output is in point t's block iff each coordinate is in the block's range on its axis. -/
theorem mem_block (t : Fin cfg3.N) (i : S50000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v43).slice (win3_4.rect t)).set ↔ _
  rw [View.set_slice_whole, Rect.mem_set_unit]
  exact Iff.rfl

/-- Every block row is some point's. -/
theorem blockOnto : ∀ q0 : Fin 10, ∃ t : Fin cfg3.N, win3_4.index t = ![q0.val, 0] :=
  (by decide +kernel : ∀ q0 : Fin 10, ∃ t : Fin grid3.N, win3_4.index t = ![q0.val, 0])

/-- The ten blocks tile the output: row r is in the block of point r / 5000. -/
theorem covered (i : S50000x32.Idx) :
    ∃ t : Fin cfg3.N, (cfg3.win 4).flush t = true ∧ i ∈ ((cfg3.win 4).blk t).view.set := by
  have hi0 : (i 0).val < 50000 := (i 0).isLt
  have hi1 : (i 1).val < 32 := (i 1).isLt
  obtain ⟨t, ht⟩ := blockOnto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 32 ≤ (i 1).val ∧ (i 1).val < win3_4.index t (1 : Fin 2) * 32 + 32; omega

/-- The output array after the region: the layer's value on the arrays it found. -/
theorem final (c : Dev nD) : (dat3 V c).arrAt 4 cfg3.N
    = affine (scaleRows (V c main_v41) (V c main_v17)) (V c main_arg5) (V c main_v42) :=
  (dat3 V c).arrAt_eq_of_cover 4 (affine (scaleRows (V c main_v41) (V c main_v17)) (V c main_arg5) (V c main_v42))
    (fun t _ => written_eq V c t) covered

end Cert.KernelIdeal.LayerSecond

end
-- ==== Proof.Fold.lean ====
/-
  The kernel program's result as one function of its arguments.

  The contents of the buffers are followed through the program's eight segments. A stretch of host operations gives each
  buffer it writes the operations' value of the buffers it reads and leaves every other buffer alone; a region gives its
  output array the region's function of the arrays it finds and leaves every other buffer alone. So: the first scaling
  region finds the transposed features and the source-side normalising column; the gather and sum along the edges act on
  its output; the first layer region finds that aggregate, the destination-side column, the first weights and the first
  bias as a row; the second scaling region finds the first layer's output and the source-side column again; the edges
  act again; the second layer region finds that aggregate, the destination-side column, the second weights and bias; and
  the result is the transpose of its output. Composed, the result is the transpose of the two-layer network's value.
-/
import proofs.«119182_j31250182045888_1_alg».proof.Proof.Gen.KernelIdeal.Frame
import proofs.«119182_j31250182045888_1_alg».proof.Proof.LibGraphLayer
import proofs.«119182_j31250182045888_1_alg».proof.Proof.ScaleFirst
import proofs.«119182_j31250182045888_1_alg».proof.Proof.ScaleSecond
import proofs.«119182_j31250182045888_1_alg».proof.Proof.LayerFirst
import proofs.«119182_j31250182045888_1_alg».proof.Proof.LayerSecond
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.GraphLayer

/-- The normalising vector of a list of edge endpoints: for each node the number of edges that name it (ones summed
    into the node's entry), at least one, to the power −1/2. -/
def degNorm (idx : (⟨S800000, .i32⟩ : BufTy).Contents (Elt Ideal)) : (⟨S50000, .f32⟩ : BufTy).Contents (Elt Ideal) :=
  Host.powf (F := Ideal) (maximumf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32)))
    (broadcastInDim S50000 ![] bcast_S_S50000 (constant (F := Ideal) S_ .f32 0xBF000000#32))

/-- The aggregation along the edges: each edge takes its source node's row (a negative source index counted from the
    end), and the rows are summed into their destination nodes' rows, from zero. -/
def aggregate (x : (⟨S50000x64, .f32⟩ : BufTy).Contents (Elt Ideal)) (src dst : (⟨S800000, .i32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The program's result as one function of its arguments: the transpose of the two-layer network's value on the
    transposed features, with the two normalising columns and the two bias rows reshaped from their vectors. -/
def value (h : (⟨S64x50000, .f32⟩ : BufTy).Contents (Elt Ideal)) (src dst : (⟨S800000, .i32⟩ : BufTy).Contents (Elt Ideal)) (W1 : (⟨S64x64, .f32⟩ : BufTy).Contents (Elt Ideal)) (b1 : (⟨S64, .f32⟩ : BufTy).Contents (Elt Ideal))
    (W2 : (⟨S64x32, .f32⟩ : BufTy).Contents (Elt Ideal)) (b2 : (⟨S32, .f32⟩ : BufTy).Contents (Elt Ideal)) : (⟨S32x50000, .f32⟩ : BufTy).Contents (Elt Ideal) :=
  transpose S32x50000 [1, 0] (twoLayer (fun x => aggregate x src dst) (fun x => aggregate x src dst)
    (transpose S50000x64 [1, 0] h transposes_S64x50000_S50000x64_1_0)
    (shapeCast S50000x1 (degNorm src) shapeCasts_S50000_S50000x1) (shapeCast S50000x1 (degNorm dst) shapeCasts_S50000_S50000x1)
    W1 (shapeCast S1x64 b1 shapeCasts_S64_S1x64) W2 (shapeCast S1x32 b2 shapeCasts_S32_S1x32)) transposes_S50000x32_S32x50000_1_0

/-! ## What each stretch of host operations writes, from any contents it starts at -/

section Stretches
variable (Wv : Valuation τ sig (Elt Ideal))

theorem first_features : StableHlo.after (hostOps0 (F := Ideal)) Wv (Proc.devRef .tc main_v0)
    = transpose S50000x64 [1, 0] (Wv (Proc.devRef .tc main_arg0)) transposes_S64x50000_S50000x64_1_0 := by
  after_results <;> rfl
theorem first_srcNorm : StableHlo.after (hostOps0 (F := Ideal)) Wv (Proc.devRef .tc main_v14)
    = shapeCast S50000x1 (degNorm (Wv (Proc.devRef .tc main_arg1))) shapeCasts_S50000_S50000x1 := by
  after_results <;> (unfold degNorm; rfl)
theorem first_dstNorm : StableHlo.after (hostOps0 (F := Ideal)) Wv (Proc.devRef .tc main_v17)
    = shapeCast S50000x1 (degNorm (Wv (Proc.devRef .tc main_arg2))) shapeCasts_S50000_S50000x1 := by
  after_results <;> (unfold degNorm; rfl)
theorem second_aggregate : StableHlo.after (hostOps1 (F := Ideal)) Wv (Proc.devRef .tc main_v28)
    = aggregate (Wv (Proc.devRef .tc main_v18)) (Wv (Proc.devRef .tc main_arg1)) (Wv (Proc.devRef .tc main_arg2)) := by
  after_results <;> rfl
theorem second_biasRow : StableHlo.after (hostOps1 (F := Ideal)) Wv (Proc.devRef .tc main_v29)
    = shapeCast S1x64 (Wv (Proc.devRef .tc main_arg4)) shapeCasts_S64_S1x64 := by
  after_results <;> rfl
theorem third_aggregate : StableHlo.after (hostOps3 (F := Ideal)) Wv (Proc.devRef .tc main_v41)
    = aggregate (Wv (Proc.devRef .tc main_v31)) (Wv (Proc.devRef .tc main_arg1)) (Wv (Proc.devRef .tc main_arg2)) := by
  after_results <;> rfl
theorem third_biasRow : StableHlo.after (hostOps3 (F := Ideal)) Wv (Proc.devRef .tc main_v42)
    = shapeCast S1x32 (Wv (Proc.devRef .tc main_arg6)) shapeCasts_S32_S1x32 := by
  after_results <;> rfl
theorem last_transpose : StableHlo.after (hostOps4 (F := Ideal)) Wv (Proc.devRef .tc main_v44)
    = transpose S32x50000 [1, 0] (Wv (Proc.devRef .tc main_v43)) transposes_S50000x32_S32x50000_1_0 := by
  after_results <;> rfl

end Stretches

variable (m : (ℓ : Loc nD τ sig) → Buf (Elt Ideal) ℓ) (ρ : Dev nD → PrngReg) (c : Dev nD)

/-! ## Buffers no segment has written yet hold what they held before -/

theorem arg1_at2 : W2 m ρ c (Proc.devRef .tc main_arg1) = (m ((c : Thread nD τ).loc main_arg1)) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg1)) := rfl

theorem arg2_at2 : W2 m ρ c (Proc.devRef .tc main_arg2) = (m ((c : Thread nD τ).loc main_arg2)) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg2)) := rfl

theorem arg4_at2 : W2 m ρ c (Proc.devRef .tc main_arg4) = (m ((c : Thread nD τ).loc main_arg4)) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg4)) := rfl

theorem arg3_at3 : W3 m ρ c (Proc.devRef .tc main_arg3) = (m ((c : Thread nD τ).loc main_arg3)) :=
  calc W3 m ρ c (Proc.devRef .tc main_arg3)
    _ = W2 m ρ c (Proc.devRef .tc main_arg3) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg3)) := rfl

theorem arg1_at5 : W5 m ρ c (Proc.devRef .tc main_arg1) = (m ((c : Thread nD τ).loc main_arg1)) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg1)) := rfl

theorem arg2_at5 : W5 m ρ c (Proc.devRef .tc main_arg2) = (m ((c : Thread nD τ).loc main_arg2)) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg2)) := rfl

theorem arg6_at5 : W5 m ρ c (Proc.devRef .tc main_arg6) = (m ((c : Thread nD τ).loc main_arg6)) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg6)) := rfl

theorem arg5_at6 : W6 m ρ c (Proc.devRef .tc main_arg5) = (m ((c : Thread nD τ).loc main_arg5)) :=
  calc W6 m ρ c (Proc.devRef .tc main_arg5)
    _ = W5 m ρ c (Proc.devRef .tc main_arg5) := StableHlo.after_of_forall_not_mem (b := _) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg5)) := rfl

theorem srcNorm_at1 : W1 m ρ c (Proc.devRef .tc main_v14) = (shapeCast S50000x1 (degNorm (m ((c : Thread nD τ).loc main_arg1))) shapeCasts_S50000_S50000x1) :=
  calc W1 m ρ c (Proc.devRef .tc main_v14)
    _ = (shapeCast S50000x1 (degNorm (m ((c : Thread nD τ).loc main_arg1))) shapeCasts_S50000_S50000x1) := (first_srcNorm (W0 m ρ c)).trans rfl

theorem dstNorm_at1 : W1 m ρ c (Proc.devRef .tc main_v17) = (shapeCast S50000x1 (degNorm (m ((c : Thread nD τ).loc main_arg2))) shapeCasts_S50000_S50000x1) :=
  calc W1 m ρ c (Proc.devRef .tc main_v17)
    _ = (shapeCast S50000x1 (degNorm (m ((c : Thread nD τ).loc main_arg2))) shapeCasts_S50000_S50000x1) := (first_dstNorm (W0 m ρ c)).trans rfl

theorem srcNorm_at4 : W4 m ρ c (Proc.devRef .tc main_v14) = (shapeCast S50000x1 (degNorm (m ((c : Thread nD τ).loc main_arg1))) shapeCasts_S50000_S50000x1) :=
  calc W4 m ρ c (Proc.devRef .tc main_v14)
    _ = W3 m ρ c (Proc.devRef .tc main_v14) := W4_of_ne m ρ c main_v14 (by decide)
    _ = W2 m ρ c (Proc.devRef .tc main_v14) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v14) := (W2_arr m ρ c 1).trans (((dat0 (V1 m ρ) c).arrAt_in 1 rfl _).trans (A_eq0 (V1 m ρ) c 1))
    _ = (shapeCast S50000x1 (degNorm (m ((c : Thread nD τ).loc main_arg1))) shapeCasts_S50000_S50000x1) := srcNorm_at1 m ρ c

theorem dstNorm_at3 : W3 m ρ c (Proc.devRef .tc main_v17) = (shapeCast S50000x1 (degNorm (m ((c : Thread nD τ).loc main_arg2))) shapeCasts_S50000_S50000x1) :=
  calc W3 m ρ c (Proc.devRef .tc main_v17)
    _ = W2 m ρ c (Proc.devRef .tc main_v17) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v17) := W2_of_ne m ρ c main_v17 (by decide)
    _ = (shapeCast S50000x1 (degNorm (m ((c : Thread nD τ).loc main_arg2))) shapeCasts_S50000_S50000x1) := dstNorm_at1 m ρ c

theorem dstNorm_at6 : W6 m ρ c (Proc.devRef .tc main_v17) = (shapeCast S50000x1 (degNorm (m ((c : Thread nD τ).loc main_arg2))) shapeCasts_S50000_S50000x1) :=
  calc W6 m ρ c (Proc.devRef .tc main_v17)
    _ = W5 m ρ c (Proc.devRef .tc main_v17) := StableHlo.after_of_forall_not_mem (b := _) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v17) := W5_of_ne m ρ c main_v17 (by decide)
    _ = W3 m ρ c (Proc.devRef .tc main_v17) := (W4_arr m ρ c 1).trans (((dat1 (V3 m ρ) c).arrAt_in 1 rfl _).trans (A_eq1 (V3 m ρ) c 1))
    _ = W2 m ρ c (Proc.devRef .tc main_v17) := StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v17) := W2_of_ne m ρ c main_v17 (by decide)
    _ = (shapeCast S50000x1 (degNorm (m ((c : Thread nD τ).loc main_arg2))) shapeCasts_S50000_S50000x1) := dstNorm_at1 m ρ c

/-! ## The regions' outputs, composed -/

/-- After the first scaling region: the transposed features with each node's row multiplied by its source-side
    normalising entry. -/
theorem scaled_first : W2 m ρ c (Proc.devRef .tc main_v18) = (scaleRows (transpose S50000x64 [1, 0] (m ((c : Thread nD τ).loc main_arg0)) transposes_S64x50000_S50000x64_1_0) (shapeCast S50000x1 (degNorm (m ((c : Thread nD τ).loc main_arg1))) shapeCasts_S50000_S50000x1)) :=
  calc W2 m ρ c (Proc.devRef .tc main_v18)
    _ = (dat0 (V1 m ρ) c).arrAt 2 cfg0.N := W2_arr m ρ c 2
    _ = scaleRows (V1 m ρ c main_v0) (V1 m ρ c main_v14) := ScaleFirst.final (V1 m ρ) c
    _ = (scaleRows (transpose S50000x64 [1, 0] (m ((c : Thread nD τ).loc main_arg0)) transposes_S64x50000_S50000x64_1_0) (shapeCast S50000x1 (degNorm (m ((c : Thread nD τ).loc main_arg1))) shapeCasts_S50000_S50000x1)) := congrArg₂ scaleRows ((first_features (W0 m ρ c)).trans rfl) (srcNorm_at1 m ρ c)

/-- After the first layer region. -/
theorem layer_first : W4 m ρ c (Proc.devRef .tc main_v30) = (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) :=
  calc W4 m ρ c (Proc.devRef .tc main_v30)
    _ = (dat1 (V3 m ρ) c).arrAt 4 cfg1.N := W4_arr m ρ c 4
    _ = ramp (affine (scaleRows (V3 m ρ c main_v28) (V3 m ρ c main_v17)) (V3 m ρ c main_arg3) (V3 m ρ c main_v29)) := LayerFirst.final (V3 m ρ) c
    _ = (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) := by
      have h28 : V3 m ρ c main_v28 = (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) :=
        (second_aggregate (W2 m ρ c)).trans (by rw [scaled_first m ρ c, arg1_at2 m ρ c, arg2_at2 m ρ c])
      have h29 : V3 m ρ c main_v29 = (shapeCast S1x64 (m ((c : Thread nD τ).loc main_arg4)) shapeCasts_S64_S1x64) :=
        (second_biasRow (W2 m ρ c)).trans (by rw [arg4_at2 m ρ c])
      rw [h28, h29, show V3 m ρ c main_v17 = (shapeCast S50000x1 (degNorm (m ((c : Thread nD τ).loc main_arg2))) shapeCasts_S50000_S50000x1) from dstNorm_at3 m ρ c, show V3 m ρ c main_arg3 = (m ((c : Thread nD τ).loc main_arg3)) from arg3_at3 m ρ c]

/-- After the second scaling region. -/
theorem scaled_second : W5 m ρ c (Proc.devRef .tc main_v31) = (scaleRows (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) (shapeCast S50000x1 (degNorm (m ((c : Thread nD τ).loc main_arg1))) shapeCasts_S50000_S50000x1)) :=
  calc W5 m ρ c (Proc.devRef .tc main_v31)
    _ = (dat2 (V4 m ρ) c).arrAt 2 cfg2.N := W5_arr m ρ c 2
    _ = scaleRows (V4 m ρ c main_v30) (V4 m ρ c main_v14) := ScaleSecond.final (V4 m ρ) c
    _ = (scaleRows (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) (shapeCast S50000x1 (degNorm (m ((c : Thread nD τ).loc main_arg1))) shapeCasts_S50000_S50000x1)) := congrArg₂ scaleRows (layer_first m ρ c) (srcNorm_at4 m ρ c)

/-- After the second layer region. -/
theorem layer_second : W7 m ρ c (Proc.devRef .tc main_v43) = (affine (scaleRows (aggregate (scaleRows (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg5)) (shapeCast S1x32 (m ((c : Thread nD τ).loc main_arg6)) shapeCasts_S32_S1x32)) :=
  calc W7 m ρ c (Proc.devRef .tc main_v43)
    _ = (dat3 (V6 m ρ) c).arrAt 4 cfg3.N := W7_arr m ρ c 4
    _ = affine (scaleRows (V6 m ρ c main_v41) (V6 m ρ c main_v17)) (V6 m ρ c main_arg5) (V6 m ρ c main_v42) := LayerSecond.final (V6 m ρ) c
    _ = (affine (scaleRows (aggregate (scaleRows (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg5)) (shapeCast S1x32 (m ((c : Thread nD τ).loc main_arg6)) shapeCasts_S32_S1x32)) := by
      have h41 : V6 m ρ c main_v41 = (aggregate (scaleRows (ramp (affine (scaleRows (aggregate (scaleRows (transpose S50000x64 [1, 0] (m ((c : Thread nD τ).loc main_arg0)) transposes_S64x50000_S50000x64_1_0) (shapeCast S50000x1 (degNorm (m ((c : Thread nD τ).loc main_arg1))) shapeCasts_S50000_S50000x1)) (m ((c : Thread nD τ).loc main_arg1)) (m ((c : Thread nD τ).loc main_arg2))) (shapeCast S50000x1 (degNorm (m ((c : Thread nD τ).loc main_arg2))) shapeCasts_S50000_S50000x1)) (m ((c : Thread nD τ).loc main_arg3)) (shapeCast S1x64 (m ((c : Thread nD τ).loc main_arg4)) shapeCasts_S64_S1x64))) (shapeCast S50000x1 (degNorm (m ((c : Thread nD τ).loc main_arg1))) shapeCasts_S50000_S50000x1)) (m ((c : Thread nD τ).loc main_arg1)) (m ((c : Thread nD τ).loc main_arg2))) :=
        (third_aggregate (W5 m ρ c)).trans (by rw [scaled_second m ρ c, arg1_at5 m ρ c, arg2_at5 m ρ c])
      have h42 : V6 m ρ c main_v42 = (shapeCast S1x32 (m ((c : Thread nD τ).loc main_arg6)) shapeCasts_S32_S1x32) :=
        (third_biasRow (W5 m ρ c)).trans (by rw [arg6_at5 m ρ c])
      rw [h41, h42, show V6 m ρ c main_v17 = (shapeCast S50000x1 (degNorm (m ((c : Thread nD τ).loc main_arg2))) shapeCasts_S50000_S50000x1) from dstNorm_at6 m ρ c, show V6 m ρ c main_arg5 = (m ((c : Thread nD τ).loc main_arg5)) from arg5_at6 m ρ c]

/-- The result buffer after the whole program: the transpose of the two-layer network's value. -/
theorem result_eq : W8 m ρ c (Proc.devRef .tc main_v44) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (last_transpose (W7 m ρ c)).trans (by rw [layer_second m ρ c]; rfl)

end Cert.KernelIdeal.Fold

end
-- ==== Proof.RefValue.lean ====
/-
  The reference program's result as the same function of its arguments.

  The reference computes the two-layer network on whole arrays: each normalising vector is broadcast to a column and
  across the columns before the product with the features, the product with the weights is the host's, each bias vector
  is broadcast to a row and down the rows before it is added, and the maximum with zero is taken against a scalar
  broadcast to the array's shape. Each of these is the whole-array spelling of `scaleRows`, `affine` and `ramp`, with
  the vector reshaped to a column (or to a row) in place of its broadcast; the gather and sum along the edges and the
  normalising vectors are the same host operations in both programs and are carried as they are.
-/
import proofs.«119182_j31250182045888_1_alg».proof.Proof.Gen.ReferenceIdeal.Run
import proofs.«119182_j31250182045888_1_alg».proof.Proof.LibGraphLayer
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal Cert.ReferenceIdeal.Gen Cert.GraphLayer

/-- The normalising vector of a list of edge endpoints: for each node the number of edges that name it (ones summed
    into the node's entry), at least one, to the power −1/2. -/
def degNorm (idx : (⟨S800000, .i32⟩ : BufTy).Contents (Elt Ideal)) : (⟨S50000, .f32⟩ : BufTy).Contents (Elt Ideal) :=
  Host.powf (F := Ideal) (maximumf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32)))
    (broadcastInDim S50000 ![] bcast_S_S50000 (constant (F := Ideal) S_ .f32 0xBF000000#32))

/-- The aggregation along the edges: each edge takes its source node's row (a negative source index counted from the
    end), and the rows are summed into their destination nodes' rows, from zero. -/
def aggregate (x : (⟨S50000x64, .f32⟩ : BufTy).Contents (Elt Ideal)) (src dst : (⟨S800000, .i32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The reference's result: the transpose of the two-layer network's value on the transposed features, the two
    normalising columns and the two bias rows the vectors reshaped (by any witnesses that the reshapes are legal). -/
theorem result_eq (hs : S50000.ShapeCasts S50000x1) (h64 : S64.ShapeCasts S1x64) (h32 : S32.ShapeCasts S1x32)
    (m : (ℓ : Loc nD τ sig) → Buf (Elt Ideal) ℓ) (c : Dev nD) :
    Cert.ReferenceIdeal.Value.res_main_v57 (F := Ideal) m c
      = transpose S32x50000 [1, 0] (twoLayer (fun x => aggregate x (m ((c.tc : Thread nD τ).loc main_arg1)) (m ((c.tc : Thread nD τ).loc main_arg2))) (fun x => aggregate x (m ((c.tc : Thread nD τ).loc main_arg1)) (m ((c.tc : Thread nD τ).loc main_arg2)))
          (transpose S50000x64 [1, 0] (m ((c.tc : Thread nD τ).loc main_arg0)) transposes_S64x50000_S50000x64_1_0)
          (shapeCast S50000x1 (degNorm (m ((c.tc : Thread nD τ).loc main_arg1))) hs) (shapeCast S50000x1 (degNorm (m ((c.tc : Thread nD τ).loc main_arg2))) hs)
          (m ((c.tc : Thread nD τ).loc main_arg3)) (shapeCast S1x64 (m ((c.tc : Thread nD τ).loc main_arg4)) h64) (m ((c.tc : Thread nD τ).loc main_arg5)) (shapeCast S1x32 (m ((c.tc : Thread nD τ).loc main_arg6)) h32)) transposes_S50000x32_S32x50000_1_0 := by
  unfold Cert.ReferenceIdeal.Value.res_main_v57 twoLayer aggregate degNorm
  simp only [host_scale _ _ hs, host_affine dot_S50000x64_S64x64_S50000x64_1_0_0_1_n_n rfl _ _ h64,
    host_affine dot_S50000x64_S64x32_S50000x32_1_0_0_1_n_n rfl _ _ h32]
  rw [host_ramp bcast_S_S50000x64]

end Cert.ReferenceIdeal.RefValue

end
-- ==== Proof.lean ====
/-
  The five claims about the two-layer graph convolution: the kernel program, its idealization, and the reference.

  Both idealized programs compute, for node features h (64 by 50000), edge endpoints src and dst, weights W1, W2 and
  biases b1, b2, the transpose of

      layer₂ (ramp (layer₁ (hᵀ))),   layerₖ(x) = (agg (x scaled by ns) scaled by nd) · Wₖ + bₖ,

  where ns and nd are the nodes' out- and in-degrees (at least one) to the power −1/2, "scaled by" multiplies each
  node's row by its entry, and agg gathers each edge's source row and sums the rows into their destination nodes.

  The kernel program does the row scalings and the layers in four regions that walk the nodes in blocks of 5000 rows;
  every entry they compute reads its own row only, so each region's output array is the same function of the whole
  arrays (ScaleFirst, LayerFirst, ScaleSecond, LayerSecond), and following the buffers through the program's segments
  gives its result as that composition (Fold, over RunResult). The reference does the same on whole arrays with each
  vector broadcast where the program reshapes it; read entry by entry the two spellings are one function (LibGraphLayer,
  RefValue). The degree vectors and the gather and sum along the edges are the same host operations in both programs
  and are never opened. No identity of the extended reals is used, so the precondition is not needed.

  The frames are the generated ones (the reference's is its generated run with the result dropped); the ideal pass
  rewrote nothing, so `preserves` is trivial.
-/
import proofs.«119182_j31250182045888_1_alg».proof.Defs
import proofs.«119182_j31250182045888_1_alg».proof.Proof.Gen.Kernel
import proofs.«119182_j31250182045888_1_alg».proof.Proof.Gen.Kernel.Skeleton
import proofs.«119182_j31250182045888_1_alg».proof.Proof.Gen.Kernel.Launch
import proofs.«119182_j31250182045888_1_alg».proof.Proof.Gen.Kernel.Points
import proofs.«119182_j31250182045888_1_alg».proof.Proof.Gen.Kernel.Frame
import proofs.«119182_j31250182045888_1_alg».proof.Proof.Gen.KernelIdeal
import proofs.«119182_j31250182045888_1_alg».proof.Proof.Gen.KernelIdeal.Skeleton
import proofs.«119182_j31250182045888_1_alg».proof.Proof.Gen.KernelIdeal.Launch
import proofs.«119182_j31250182045888_1_alg».proof.Proof.Gen.KernelIdeal.Points
import proofs.«119182_j31250182045888_1_alg».proof.Proof.Gen.KernelIdeal.Frame
import proofs.«119182_j31250182045888_1_alg».proof.Proof.Gen.ReferenceIdeal
import proofs.«119182_j31250182045888_1_alg».proof.Proof.Gen.ReferenceIdeal.Run
import proofs.«119182_j31250182045888_1_alg».proof.Proof.Gen.Pre_finite_inputs
import proofs.«119182_j31250182045888_1_alg».proof.Proof.RunResult
import proofs.«119182_j31250182045888_1_alg».proof.Proof.Fold
import proofs.«119182_j31250182045888_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs end with the transpose of the two-layer
    network's value in their result buffers. -/
theorem algebraic : Cert.algebraic_KernelIdeal_ReferenceIdeal := by
  intro m ρ m' ρ' _ hagree
  refine ⟨fun c => Cert.KernelIdeal.Fold.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.RefValue.result_eq Cert.KernelIdeal.Facts₀.shapeCasts_S50000_S50000x1
      Cert.KernelIdeal.Facts₀.shapeCasts_S64_S1x64 Cert.KernelIdeal.Facts₀.shapeCasts_S32_S1x32 m' c,
      a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
